-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 15
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | .hbm, ⟨12, _⟩ => ⟨S8192x4096, .bf16⟩
  | .hbm, ⟨13, _⟩ => ⟨S1x4096, .f32⟩
  | .hbm, ⟨14, _⟩ => ⟨S8192x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v4) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibRowDot.lean ====
/-
  A matrix product against a row-major weight, read at an index.

  The dimension numbers of an [a, c] × [b, c] → [a, b] product contract axis 1 of BOTH operands and have no batch
  axis: the right operand is a stack of b rows of length c, and result entry (p, q) is the inner product of the left
  operand's row p with the right operand's row q. At result index (p, q) and contraction position k the left operand
  is read at (p, k) and the right operand at (q, k), so the sum over the contraction shape's one-axis index set is
  the sum over k : Fin c of lhs (p, k) * rhs (q, k) — in any commutative additive monoid with a product, the
  extended reals included. The statement is over variable extents; a printed record with these six lists is this
  one by reflexivity.
-/
import Idealize.ShloMosaic.Lib.ValueIdx
import Idealize.ShloMosaic.PureOps.Ideal.Laws

noncomputable section

namespace Cert.Lib.RowDot

open Idealize.ShloMosaic Idealize.ShloMosaic.ValueIdx
open scoped BigOperators

variable {a c b : Nat}

/-- The dimension numbers of the product [a, c] × [b, c] → [a, b] that contracts the second axis of both. -/
abbrev dims (wf : DotDims.WF ⟨2, ![a, c]⟩ ⟨2, ![b, c]⟩ ⟨2, ![a, b]⟩ [1] [1] [0] [0] [] []) :
    DotDims ⟨2, ![a, c]⟩ ⟨2, ![b, c]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, c]⟩ ⟨2, ![b, c]⟩ ⟨2, ![a, b]⟩ [1] [1] [0] [0] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the result's column. -/
theorem rhs_row (i : (⟨2, ![a, b]⟩ : Shape).Idx) (k : (dims wf).contr.Idx) :
    ((dims wf).rhsIdx i k 0).val = (i 1).val := by
  unfold DotDims.rhsIdx
  rw [dif_neg (show ¬(0 : Fin 2) ∈ (dims wf).rhsBatch from List.not_mem_nil),
    dif_pos (show (0 : Fin 2) ∈ (dims wf).rhsNonContracting from List.mem_singleton.mpr rfl)]
  rfl

/-- The right operand's column is the contraction position. -/
theorem rhs_col (i : (⟨2, ![a, b]⟩ : Shape).Idx) (k : (dims wf).contr.Idx) :
    ((dims wf).rhsIdx i k 1).val = (k ⟨0, Nat.one_pos⟩).val :=
  (dims wf).rhsIdx_val_of_single rfl i k

/-- The product's sum at (p, q): over k, the left operand at (p, k) times the right operand at (q, k). -/
theorem sum_apply {M : Type*} [AddCommMonoid M] [Mul M] (lhs : (⟨2, ![a, c]⟩ : Shape).Idx → M)
    (rhs : (⟨2, ![b, c]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 q k) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 q k :=
    funext fun ax => Fin.ext (by
      match ax with
      | ⟨0, _⟩ => exact rhs_row wf _ _
      | ⟨1, _⟩ => exact (rhs_col wf _ _).trans hk)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![b, c]⟩ φ₂) (p : Fin a) (q : Fin b) :
    matmul (dims wf) prec lhs rhs (constant ⟨2, ![a, b]⟩ .f32 0x00000000#32) (ix2 p q)
      = ∑ k : Fin c, lhs (ix2 p k) * rhs (ix2 q k) :=
  (Ideal.matmul_constant_zero_apply (dims wf) prec lhs rhs (ix2 p q)).trans (sum_apply wf lhs rhs p q)

end Cert.Lib.RowDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.Payloads.lean ====
/-
  The kernel body's three stored values, read at an index of the 2048 × 1024 accumulator block, at the exact values.

  The body keeps one accumulator block. At the first step of a run along the contraction axis it fills the block with
  zero; at every step it adds to entry (p, q) the inner product of row p of the current 2048 × 512 block of x with row
  q of the current 1024 × 512 block of the sign matrix (the product contracts the second axis of both operands, so no
  transpose is formed); at the last step it adds the 1 × 1024 block of the bias row to every row.
-/
import proofs.«136808_j35905926594624_2_alg».proof.Proof.Gen.KernelIdeal.Skeleton
import proofs.«136808_j35905926594624_2_alg».proof.Proof.LibRowDot
import proofs.«136808_j35905926594624_2_alg».proof.Proof.LibRowBroadcasts
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-- The fill: zero at every entry. -/
theorem fill_apply (y : S2048x1024.Idx) : k0_pay1 (F := Ideal) y = 0 := by
  show Ideal.ofBits .f32 0x00000000#32 = 0
  exact Ideal.ofBits_zero_f32

/-- One step along the contraction axis: entry (p, q) of the accumulator gains the inner product of row p of the
    x block with row q of the sign block. -/
theorem step_apply (x0 : Vec Ideal S2048x512 .bf16) (x1 : Vec Ideal S1024x512 .bf16) (acc : Vec Ideal S2048x1024 .f32)
    (p : Fin 2048) (q : Fin 1024) :
    k0_pay2 (F := Ideal) x0 x1 acc (ix2 p q) = acc (ix2 p q) + ∑ k : Fin 512, x0 (ix2 p k) * x1 (ix2 q k) := by
  show (shapeCast S2048x1024 acc shapeCasts_S2048x1024_S2048x1024) (ix2 p q)
      + matmul (F := Ideal) dot_S2048x512_S1024x512_S2048x1024_1_1_0_0_n_n none (shapeCast S2048x512 x0 shapeCasts_S2048x512_S2048x512)
          (shapeCast S1024x512 x1 shapeCasts_S1024x512_S1024x512) (constant (F := Ideal) S2048x1024 .f32 0x00000000#32) (ix2 p q) = _
  rw [shapeCast_self, shapeCast_self, shapeCast_self]
  exact congrArg (acc (ix2 p q) + ·)
    (Cert.Lib.RowDot.matmul_zero_apply dot_S2048x512_S1024x512_S2048x1024_1_1_0_0_n_n_wf none x0 x1 p q)

/-- The last step's addition: every row gains the bias block. -/
theorem bias_apply (v : Vec Ideal S2048x1024 .f32) (x2 : Vec Ideal S1x1024 .f32) (p : Fin 2048) (q : Fin 1024) :
    k0_pay3 (F := Ideal) v x2 (ix2 p q) = v (ix2 p q) + x2 (ix2 (0 : Fin 1) q) := by
  show (shapeCast S2048x1024 v shapeCasts_S2048x1024_S2048x1024) (ix2 p q)
      + broadcastTo S2048x1024 (shapeCast S1x1024 x2 shapeCasts_S1x1024_S1x1024) broadcasts_S1x1024_S2048x1024 (ix2 p q) = _
  rw [shapeCast_self, shapeCast_self]
  exact congrArg (v (ix2 p q) + ·) (Cert.Lib.Rows.bcastRow_apply x2 broadcasts_S1x1024_S2048x1024 p q)

end Cert.KernelIdeal.Body

end
-- ==== Proof.Fold.lean ====
/-
  What the accumulator block holds when a run of eight grid points ends, read at an index.

  A run is the eight consecutive points that share a row-block and a column-block and walk the contraction axis.
  The first point fills the accumulator with zero and adds its block product; each later point adds its own; the
  last point then adds the bias block. So at entry (p, q) the accumulator ends at

      (∑ s < 8, D (8·r + s) (p, q)) + bias block (0, q),

  where D n (p, q) is the inner product of row p of point n's x block with row q of its sign block. Only the
  associativity of addition and 0 + a = a are used, both of which hold on the extended reals.
-/
import proofs.«136808_j35905926594624_2_alg».proof.Proof.Gen.KernelIdeal.Value
import proofs.«136808_j35905926594624_2_alg».proof.Proof.Payloads
import Idealize.ShloMosaic.Lib.Pipeline.Value
import Idealize.ShloMosaic.Lib.ValueIdx

noncomputable section

namespace Cert.KernelIdeal.Fold

open Cert.KernelIdeal Cert.KernelIdeal.Gen Cert.KernelIdeal.Value Cert.KernelIdeal.Body
open Idealize.ShloMosaic Idealize.ShloMosaic.TcCoe Idealize.SL.Sem Idealize.ShloMosaic.ValueIdx
open scoped BigOperators

variable (m : (ℓ : Loc nD τ sig) → Buf (Elt Ideal) ℓ)

/-- The inner product of row p of an x block with row q of a sign block. -/
def rowDot (x0 : Vec Ideal S2048x512 .bf16) (x1 : Vec Ideal S1024x512 .bf16) (p : Fin 2048) (q : Fin 1024) : EReal :=
  ∑ k : Fin 512, x0 (ix2 p k) * x1 (ix2 q k)

/-- Point n's addend at an accumulator entry: the inner product of the entry's row of the point's x block with the
    entry's column's row of its sign block (zero past the grid, where it is never used). -/
def addend (c : Dev nD) (n : ℕ) (y : S2048x1024.Idx) : EReal :=
  if h : n < cfg0.N then rowDot (iblk m c 0 ⟨n, h⟩) (iblk m c 1 ⟨n, h⟩) (y 0) (y 1) else 0

/-- At a point inside the grid the addend is that inner product. -/
theorem addend_eq (c : Dev nD) (n : ℕ) (h : n < cfg0.N) (p : Fin 2048) (q : Fin 1024) :
    addend m c n (ix2 p q) = rowDot (iblk m c 0 ⟨n, h⟩) (iblk m c 1 ⟨n, h⟩) p q := by
  unfold addend
  rw [dif_pos h]

/-- The first point of a run leaves zero plus its addend. -/
theorem reset_apply (c : Dev nD) (n : ℕ) (h : n < cfg0.N) (i : S2048x1024.Idx) :
    reset3 m c n h i = (fun _ => (0 : EReal)) i + addend m c n i := by
  obtain ⟨p, q, rfl⟩ : ∃ (p : Fin 2048) (q : Fin 1024), i = ix2 p q := ⟨i 0, i 1, eq_ix2 i⟩
  rw [addend_eq m c n h p q]
  unfold reset3
  refine (step_apply (iblk m c 0 ⟨n, h⟩) (iblk m c 1 ⟨n, h⟩) (k0_pay1 (F := Ideal)) p q).trans ?_
  rw [fill_apply]
  rfl

/-- A middle point of a run adds its addend to what the point before left. -/
theorem middle_apply (c : Dev nD) (n : ℕ) (h : n < cfg0.N) (h0 : ¬n % 8 = 0) (h7 : ¬n % 8 = 7)
    (acc : S2048x1024.Idx → EReal) (i : S2048x1024.Idx) :
    step3 m c n h acc i = acc i + addend m c n i := by
  obtain ⟨p, q, rfl⟩ : ∃ (p : Fin 2048) (q : Fin 1024), i = ix2 p q := ⟨i 0, i 1, eq_ix2 i⟩
  rw [addend_eq m c n h p q]
  unfold step3
  rw [if_pos ⟨h0, h7⟩]
  exact step_apply (iblk m c 0 ⟨n, h⟩) (iblk m c 1 ⟨n, h⟩) acc p q

/-- The last point of a run adds its addend and then the bias block. -/
theorem last_apply (c : Dev nD) (n : ℕ) (h : n < cfg0.N) (h0 : ¬n % 8 = 0) (h7 : n % 8 = 7)
    (acc : S2048x1024.Idx → EReal) (p : Fin 2048) (q : Fin 1024) :
    step3 m c n h acc (ix2 p q) = (acc (ix2 p q) + addend m c n (ix2 p q)) + iblk m c 2 ⟨n, h⟩ (ix2 (0 : Fin 1) q) := by
  rw [addend_eq m c n h p q]
  unfold step3
  rw [if_neg (fun hh => hh.2 h7), if_pos ⟨h0, h7⟩]
  refine (bias_apply _ (iblk m c 2 ⟨n, h⟩) p q).trans ?_
  exact congrArg (· + iblk m c 2 ⟨n, h⟩ (ix2 (0 : Fin 1) q))
    (step_apply (iblk m c 0 ⟨n, h⟩) (iblk m c 1 ⟨n, h⟩) acc p q)

/-- The accumulator at the end of run r: the eight addends summed, plus the bias block. -/
theorem run_fold (c : Dev nD) (r : ℕ) (hr : 8 * r + 7 < cfg0.N) (p : Fin 2048) (q : Fin 1024) :
    Pipeline.accAt (reset3 m c) (step3 m c) (8 * r) 7 hr (ix2 p q)
      = (∑ s ∈ Finset.range 8, addend m c (8 * r + s) (ix2 p q))
        + iblk m c 2 ⟨8 * r + 7, hr⟩ (ix2 (0 : Fin 1) q) := by
  have h6 : 8 * r + 6 < cfg0.N := by omega
  have e6 := Pipeline.accAt_add_apply (ι := S2048x1024.Idx) (β := EReal) (reset3 m c) (step3 m c)
    (fun _ => 0) (addend m c) (8 * r) 6 (fun h i => reset_apply m c (8 * r) h i)
    (fun n h acc i h1 h2 => middle_apply m c n h (by omega) (by omega) acc i) 6 le_rfl h6 (ix2 p q)
  show step3 m c (8 * r + (6 + 1)) hr (Pipeline.accAt (reset3 m c) (step3 m c) (8 * r) 6 _) (ix2 p q) = _
  rw [last_apply m c (8 * r + (6 + 1)) hr (by omega) (by omega), e6, Finset.sum_range_succ _ 7]
  show ((0 : EReal) + _) + _ + _ = _
  rw [zero_add]

end Cert.KernelIdeal.Fold

end
-- ==== Proof.Blocks.lean ====
/-
  The three input blocks of a grid point, read at an index.

  The grid is 4 × 4 × 8, enumerated row-major: point t has row-block t / 32, column-block (t / 8) mod 4 and
  contraction step t mod 8. At point t the x window holds rows 2048·(t / 32) … and columns 512·(t mod 8) … of x; the
  sign window holds rows 1024·((t / 8) mod 4) … and the same columns of the sign matrix; the bias window holds columns
  1024·((t / 8) mod 4) … of the bias row. A block's coordinate is always block index × block size + the coordinate
  inside the block.
-/
import proofs.«136808_j35905926594624_2_alg».proof.Proof.Gen.KernelIdeal.Frame
import Idealize.ShloMosaic.Lib.ValueIdx

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The printed index maps of the three input windows in closed form, decided over the grid. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4 :=
  (by decide +kernel : ∀ t : Fin grid0.N, _)

/-- The x block at point t, entry (p, k), is x at row 2048·(t / 32) + p, column 512·(t mod 8) + k. -/
theorem xblk_apply (c : Dev nD) (t : Fin cfg0.N) (p : Fin 2048) (k : Fin 512) (a : Fin 8192) (b : Fin 4096)
    (ha : a.val = 2048 * (t.val / 32) + p.val) (hb : b.val = 512 * (t.val % 8) + k.val) :
    iblk m c 0 t (ix2 p k) = V m c main_v4 (ix2 a b) := by
  obtain ⟨e0, e1, -⟩ := idx_facts t
  show V m c main_v4 (((cfg0.win 0).blk t).view.emb (ix2 p k)) = _
  refine congrArg (V m c main_v4) (funext fun ax => Fin.ext ?_)
  match ax with
  | ⟨0, _⟩ => show win0_0.index t (0 : Fin 2) * 2048 + 1 * p.val = a.val; omega
  | ⟨1, _⟩ => show win0_0.index t (1 : Fin 2) * 512 + 1 * k.val = b.val; omega

/-- The sign block at point t, entry (q, k), is the sign matrix at row 1024·((t / 8) mod 4) + q, column
    512·(t mod 8) + k. -/
theorem sblk_apply (c : Dev nD) (t : Fin cfg0.N) (q : Fin 1024) (k : Fin 512) (a : Fin 4096) (b : Fin 4096)
    (ha : a.val = 1024 * (t.val / 8 % 4) + q.val) (hb : b.val = 512 * (t.val % 8) + k.val) :
    iblk m c 1 t (ix2 q k) = V m c main_v3 (ix2 a b) := by
  obtain ⟨-, -, e0, e1, -⟩ := idx_facts t
  show V m c main_v3 (((cfg0.win 1).blk t).view.emb (ix2 q k)) = _
  refine congrArg (V m c main_v3) (funext fun ax => Fin.ext ?_)
  match ax with
  | ⟨0, _⟩ => show win0_1.index t (0 : Fin 2) * 1024 + 1 * q.val = a.val; omega
  | ⟨1, _⟩ => show win0_1.index t (1 : Fin 2) * 512 + 1 * k.val = b.val; omega

/-- The bias block at point t, column q, is the bias row at column 1024·((t / 8) mod 4) + q. -/
theorem bblk_apply (c : Dev nD) (t : Fin cfg0.N) (q : Fin 1024) (b : Fin 4096)
    (hb : b.val = 1024 * (t.val / 8 % 4) + q.val) :
    iblk m c 2 t (ix2 (0 : Fin 1) q) = V m c main_v5 (ix2 (0 : Fin 1) b) := by
  obtain ⟨-, -, -, -, e0, e1⟩ := idx_facts t
  show V m c main_v5 (((cfg0.win 2).blk t).view.emb (ix2 (0 : Fin 1) q)) = _
  refine congrArg (V m c main_v5) (funext fun ax => Fin.ext ?_)
  match ax with
  | ⟨0, _⟩ => show win0_2.index t (0 : Fin 2) * 1 + 1 * (0 : Fin 1).val = (0 : Fin 1).val; simp [e0]
  | ⟨1, _⟩ => show win0_2.index t (1 : Fin 2) * 1024 + 1 * q.val = b.val; omega

end Cert.KernelIdeal.Blocks

end
-- ==== Proof.Spec.lean ====
/-
  The layer both programs compute, as one function of the three argument arrays, on the extended reals.

  For x of shape 8192 × 4096, a weight matrix w of shape 4096 × 4096 and a bias vector b of length 4096:

      out (i, j) = (∑ k < 4096, x (i, k) · s (j, k)) + b j,        s = signs w,

  where `signs w` holds +1 where the weight is ≥ 0 and −1 elsewhere. The sign matrix is kept as the very term both
  programs print for it (a comparison with the zero splat selecting between the splats of the words of 1.0 and −1.0),
  so its entries are never evaluated: the two programs differ only in how the sum over k is arranged.
-/
import Idealize.ShloMosaic.Lib.ValueIdx
import Idealize.ShloMosaic.PureOps.Ideal.Laws

noncomputable section

namespace Cert.BinaryLinear

open Idealize.ShloMosaic Idealize.ShloMosaic.ValueIdx
open scoped BigOperators

abbrev SX : Shape := ⟨2, ![8192, 4096]⟩
abbrev SW : Shape := ⟨2, ![4096, 4096]⟩
abbrev SB : Shape := ⟨1, ![4096]⟩
abbrev S0 : Shape := ⟨0, ![]⟩

theorem splat_ok : S0.BroadcastsInDim SW (![] : Fin 0 → Fin SW.rank) := by decide

/-- The matrix of signs of the weights: +1 where the weight is ≥ 0, −1 elsewhere, as both programs spell it. -/
def signs (w : FVec Ideal SW .f32) : FVec Ideal SW .f32 :=
  select (cmpf .oge w (broadcastInDim SW ![] splat_ok (constant (F := Ideal) S0 .f32 0x00000000#32)))
    (broadcastInDim SW ![] splat_ok (constant (F := Ideal) S0 .f32 0x3F800000#32))
    (broadcastInDim SW ![] splat_ok (constant (F := Ideal) S0 .f32 0xBF800000#32))

/-- The layer: entry (i, j) is the inner product of row i of x with row j of the sign matrix, plus the bias at j. -/
def linear (x : SX.Idx → EReal) (s : SW.Idx → EReal) (b : SB.Idx → EReal) : SX.Idx → EReal :=
  fun i => (∑ k : Fin 4096, x (ix2 (i 0) k) * s (ix2 (i 1) k)) + b (ix1 (i 1))

end Cert.BinaryLinear

end
-- ==== Proof.Entry.lean ====
/-
  What the region finds in the three arrays its windows stage, at the exact values.

  Before the region the program casts x to bf16 (the identity on exact values), forms the sign matrix of the weights
  and casts it to bf16 (again the identity), and gives the bias vector a leading unit axis. So the region's first
  array is x itself, its second the shared sign matrix, and its third the bias as a 1 × 4096 row.
-/
import proofs.«136808_j35905926594624_2_alg».proof.Proof.Gen.KernelIdeal.Frame
import proofs.«136808_j35905926594624_2_alg».proof.Proof.Spec
import Idealize.ShloMosaic.Lib.StableHlo.Run
import Idealize.ShloMosaic.Lib.Pipeline.Value

noncomputable section

namespace Cert.KernelIdeal.Entry

open Cert.KernelIdeal Cert.KernelIdeal.Gen Cert.BinaryLinear
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The array of window 0 is x. -/
theorem x_entry (c : Dev nD) :
    (V m c main_v4 : S8192x4096.Idx → EReal) = m ((c : Thread nD τ).loc main_arg0) := by
  dsimp only [V]
  simp only [hostOps0, hostOps0_1, hostOps0_2, List.flatten_cons, List.flatten_nil, List.append_nil, List.cons_append,
    List.nil_append]
  after_results <;> rfl

/-- The array of window 1 is the sign matrix of the weights. -/
theorem sign_entry (c : Dev nD) :
    (V m c main_v3 : S4096x4096.Idx → EReal) = signs (m ((c : Thread nD τ).loc main_arg1)) := by
  dsimp only [V]
  simp only [hostOps0, hostOps0_1, hostOps0_2, List.flatten_cons, List.flatten_nil, List.append_nil, List.cons_append,
    List.nil_append]
  after_results <;> rfl

/-- The array of window 2 is the bias vector as a 1 × 4096 row. -/
theorem bias_entry (c : Dev nD) :
    (V m c main_v5 : S1x4096.Idx → EReal)
      = shapeCast S1x4096 (m ((c : Thread nD τ).loc main_arg2)) shapeCasts_S4096_S1x4096 := by
  dsimp only [V]
  simp only [hostOps0, hostOps0_1, hostOps0_2, List.flatten_cons, List.flatten_nil, List.append_nil, List.cons_append,
    List.nil_append]
  after_results <;> rfl

/-- The bias row at column q is the bias vector at q. -/
theorem bias_row (v : S4096.Idx → EReal) (q : Fin 4096) :
    shapeCast S1x4096 v shapeCasts_S4096_S1x4096 (ix2 (0 : Fin 1) q) = v (ix1 q) :=
  shapeCast_apply v shapeCasts_S4096_S1x4096 _ _ (by
    rw [Shape.rowMajor_val_two, Shape.rowMajor_val_one]
    show q.val = (0 : Fin 1).val * 4096 + q.val
    simp)

end Cert.KernelIdeal.Entry

end
-- ==== Proof.LibBlockedSum.lean ====
/-
  A sum of a·b terms taken b at a time.

  In any commutative additive monoid — the extended reals included, where no cancellation or distributivity is
  available but addition is still associative and commutative — the sum of `f 0, …, f (a·b − 1)` equals the sum over
  the a consecutive stretches of length b of each stretch's own sum. This is the whole algebra behind a matrix product
  whose contraction axis is cut into blocks that are accumulated one after the other.
-/
import Idealize.ShloMosaic.Lib.ValueIdx

namespace Cert.Lib.BlockedSum

open scoped BigOperators

/-- Over ranges: the stretches `b·s, …, b·s + b − 1` for `s < a` exhaust `0, …, a·b − 1`. -/
theorem sum_range_blocks {M : Type*} [AddCommMonoid M] (f : ℕ → M) (b : ℕ) :
    ∀ a : ℕ, ∑ s ∈ Finset.range a, ∑ k ∈ Finset.range b, f (b * s + k) = ∑ k ∈ Finset.range (a * b), f k
  | 0 => by simp
  | a + 1 => by
    rw [Finset.sum_range_succ, sum_range_blocks f b a, Nat.succ_mul, Finset.sum_range_add, Nat.mul_comm b a]

/-- The same with the inner and the total sum over `Fin`: the form in which a block's inner product and the whole
    inner product are read off the two programs. -/
theorem sum_fin_blocks {M : Type*} [AddCommMonoid M] (f : ℕ → M) (a b : ℕ) :
    ∑ s ∈ Finset.range a, ∑ k : Fin b, f (b * s + k.val) = ∑ k : Fin (a * b), f k.val := by
  rw [Fin.sum_univ_eq_sum_range f (a * b), ← sum_range_blocks f b a]
  exact Finset.sum_congr rfl fun s _ => Fin.sum_univ_eq_sum_range (fun k => f (b * s + k)) b

end Cert.Lib.BlockedSum
-- ==== Proof.SpecBlocks.lean ====
/-
  The layer's sum over k < 4096 taken as eight stretches of 512 terms.

  Term k of entry (a, b)'s sum is x (a, k) · s (b, k). Extended by zero past k = 4095 it becomes a function of every
  natural number, and the regrouping law for sums in a commutative additive monoid applies verbatim: the layer's
  entry is the sum over the eight stretches t < 8 of ∑ k < 512 of term 512·t + k, plus the bias.
-/
import proofs.«136808_j35905926594624_2_alg».proof.Proof.Spec
import proofs.«136808_j35905926594624_2_alg».proof.Proof.LibBlockedSum

noncomputable section

namespace Cert.BinaryLinear

open Idealize.ShloMosaic Idealize.ShloMosaic.ValueIdx Cert.Lib.BlockedSum
open scoped BigOperators

/-- Term k of the inner product of row a of x with row b of the sign matrix; zero past the last column. -/
def term (x : SX.Idx → EReal) (s : SW.Idx → EReal) (a : Fin 8192) (b : Fin 4096) (k : ℕ) : EReal :=
  if h : k < 4096 then x (ix2 a ⟨k, h⟩) * s (ix2 b ⟨k, h⟩) else 0

theorem term_eq (x : SX.Idx → EReal) (s : SW.Idx → EReal) (a : Fin 8192) (b : Fin 4096) (k : ℕ) (h : k < 4096) :
    term x s a b k = x (ix2 a ⟨k, h⟩) * s (ix2 b ⟨k, h⟩) := dif_pos h

/-- The layer with its sum taken 512 terms at a time. -/
theorem linear_blocks (x : SX.Idx → EReal) (s : SW.Idx → EReal) (b : SB.Idx → EReal) (i : SX.Idx) :
    linear x s b i
      = (∑ t ∈ Finset.range 8, ∑ k : Fin 512, term x s (i 0) (i 1) (512 * t + k.val)) + b (ix1 (i 1)) := by
  unfold linear
  rw [sum_fin_blocks (term x s (i 0) (i 1)) 8 512]
  refine congrArg (· + b (ix1 (i 1))) ?_
  exact Finset.sum_congr rfl fun k _ => (term_eq x s (i 0) (i 1) k.val k.isLt).symm

end Cert.BinaryLinear

end
-- ==== Proof.KernelIsSpec.lean ====
/-
  The kernel computes the layer.

  Output entry (i, j) lies in the block with row-block i / 2048 and column-block j / 1024, which run
  r = 4·(i / 2048) + j / 1024 fills, at place (i mod 2048, j mod 1024). Point 8·r + s of that run holds columns
  512·s … 512·s + 511 of row i of x and of row j of the sign matrix, so its addend is the stretch
  ∑ k < 512, x (i, 512·s + k) · s (j, 512·s + k) of the layer's sum; the eight stretches exhaust k < 4096, and the
  run's bias block at column j mod 1024 is the bias at j.
-/
import proofs.«136808_j35905926594624_2_alg».proof.Proof.Gen.KernelIdeal.Value
import proofs.«136808_j35905926594624_2_alg».proof.Proof.Fold
import proofs.«136808_j35905926594624_2_alg».proof.Proof.Blocks
import proofs.«136808_j35905926594624_2_alg».proof.Proof.Entry
import proofs.«136808_j35905926594624_2_alg».proof.Proof.SpecBlocks

noncomputable section

namespace Cert.KernelIdeal.Layer

open Cert.KernelIdeal Cert.KernelIdeal.Gen Cert.KernelIdeal.Value Cert.KernelIdeal.Fold Cert.KernelIdeal.Blocks
open Cert.KernelIdeal.Entry Cert.BinaryLinear
open Idealize.ShloMosaic Idealize.ShloMosaic.TcCoe Idealize.SL.Sem Idealize.ShloMosaic.ValueIdx
open scoped BigOperators

variable (m : (ℓ : Loc nD τ sig) → Buf (Elt Ideal) ℓ)

/-- Where point 8·r + s of the run that fills (a, b)'s block sits on the grid, and where (a, b) sits in the block. -/
theorem point_arith (a b s : ℕ) (ha : a < 8192) (hb : b < 4096) (hs : s < 8) :
    8 * (4 * (a / 2048 - 0) + 1 * (b / 1024 - 0)) + s < 128
    ∧ a = 2048 * ((8 * (4 * (a / 2048 - 0) + 1 * (b / 1024 - 0)) + s) / 32) + a % 2048
    ∧ b = 1024 * ((8 * (4 * (a / 2048 - 0) + 1 * (b / 1024 - 0)) + s) / 8 % 4) + b % 1024
    ∧ (8 * (4 * (a / 2048 - 0) + 1 * (b / 1024 - 0)) + s) % 8 = s := by
  omega

/-- The array the kernel's runs leave is the layer of the three argument arrays. -/
theorem G3_eq (c : Dev nD) :
    (G3 (F := Ideal) m c : S8192x4096.Idx → EReal)
      = linear (m ((c : Thread nD τ).loc main_arg0)) (signs (m ((c : Thread nD τ).loc main_arg1)))
          (m ((c : Thread nD τ).loc main_arg2)) := by
  funext i
  have hi0 : (i 0).val < 8192 := (i 0).isLt
  have hi1 : (i 1).val < 4096 := (i 1).isLt
  have hN : cfg0.N = 128 := N_0
  have hr : 8 * run3Of i + 7 < cfg0.N := by
    rw [hN]; exact (point_arith (i 0).val (i 1).val 7 hi0 hi1 (by omega)).1
  obtain ⟨p, hl0⟩ : ∃ p : Fin 2048, p.val = (i 0).val % 2048 := ⟨⟨_, Nat.mod_lt _ (by decide)⟩, rfl⟩
  obtain ⟨q, hl1⟩ : ∃ q : Fin 1024, q.val = (i 1).val % 1024 := ⟨⟨_, Nat.mod_lt _ (by decide)⟩, rfl⟩
  have hloc : (loc3Of i : S2048x1024.Idx) = ix2 p q := funext fun a => Fin.ext (by
    match a with
    | ⟨0, _⟩ => exact hl0.symm
    | ⟨1, _⟩ => exact hl1.symm)
  unfold G3
  rw [dif_pos hr]
  refine (congrArg (Pipeline.accAt (reset3 m c) (step3 m c) (8 * run3Of i) 7 hr) hloc).trans ?_
  refine (run_fold m c (run3Of i) hr p q).trans ?_
  refine Eq.trans ?_ (linear_blocks _ _ _ i).symm
  refine congrArg₂ (· + ·) ?_ ?_
  · -- stretch by stretch, term by term
    refine Finset.sum_congr rfl fun s hs => ?_
    have hs' : s < 8 := Finset.mem_range.mp hs
    obtain ⟨a0, a1, a2, a3⟩ := point_arith (i 0).val (i 1).val s hi0 hi1 hs'
    have hn : 8 * run3Of i + s < cfg0.N := by rw [hN]; exact a0
    rw [addend_eq m c (8 * run3Of i + s) hn p q]
    unfold rowDot
    refine Finset.sum_congr rfl fun k _ => ?_
    have hk : k.val < 512 := k.isLt
    have hb : 512 * s + k.val < 4096 := by omega
    rw [term_eq _ _ (i 0) (i 1) (512 * s + k.val) hb]
    refine congrArg₂ (· * ·) ?_ ?_
    · refine (xblk_apply m c ⟨8 * run3Of i + s, hn⟩ p k (i 0) ⟨512 * s + k.val, hb⟩ ?_ ?_).trans
        (congrFun (x_entry m c) _)
      · show (i 0).val = 2048 * ((8 * run3Of i + s) / 32) + p.val
        rw [hl0]; exact a1
      · show 512 * s + k.val = 512 * ((8 * run3Of i + s) % 8) + k.val
        rw [a3]
    · refine (sblk_apply m c ⟨8 * run3Of i + s, hn⟩ q k (i 1) ⟨512 * s + k.val, hb⟩ ?_ ?_).trans
        (congrFun (sign_entry m c) _)
      · show (i 1).val = 1024 * ((8 * run3Of i + s) / 8 % 4) + q.val
        rw [hl1]; exact a2
      · show 512 * s + k.val = 512 * ((8 * run3Of i + s) % 8) + k.val
        rw [a3]
  · -- the bias
    obtain ⟨-, -, a2, -⟩ := point_arith (i 0).val (i 1).val 7 hi0 hi1 (by omega)
    refine (bblk_apply m c ⟨8 * run3Of i + 7, hr⟩ q (i 1) ?_).trans
      ((congrFun (bias_entry m c) _).trans (bias_row _ (i 1)))
    show (i 1).val = 1024 * ((8 * run3Of i + 7) / 8 % 4) + q.val
    rw [hl1]; exact a2

end Cert.KernelIdeal.Layer

end
-- ==== Proof.RefIsSpec.lean ====
/-
  The reference computes the layer.

  The reference transposes the sign matrix and contracts x's second axis with the transpose's first, so at result
  index (i, j) and contraction position k it reads x at (i, k) and the transpose at (k, j), which is the sign matrix
  at (j, k); the bias vector is given a leading unit axis and broadcast down the rows, so it is read at j.
-/
import proofs.«136808_j35905926594624_2_alg».proof.Proof.Gen.ReferenceIdeal.Read
import proofs.«136808_j35905926594624_2_alg».proof.Proof.Spec

noncomputable section

namespace Cert.ReferenceIdeal.RefValue

open Cert.ReferenceIdeal Cert.ReferenceIdeal.Gen Cert.ReferenceIdeal.Read Cert.BinaryLinear
open Idealize.ShloMosaic Idealize.ShloMosaic.ValueIdx
open scoped BigOperators

/-- The reference's sign matrix is the shared one (its float-to-same-float conversion is the identity function). -/
theorem signs_eq (x1 : (⟨S4096x4096, .f32⟩ : BufTy).Contents (Elt Ideal)) :
    val_main_v3 (F := Ideal) x1 = signs x1 := rfl

/-- The reference's result, index by index, is the layer. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v8 (F := Ideal) x0 x1 x2 = linear x0 (signs x1) x2 := by
  funext i
  have el : ∀ k : Fin 4096, lidx_main_v5 i k = ix2 (i 0) k := fun k =>
    funext fun a => by match a with | ⟨0, _⟩ => rfl | ⟨1, _⟩ => rfl
  have er : ∀ k : Fin 4096, idx_main_v4 (ridx_main_v5 i k) = ix2 (i 1) k := fun k =>
    funext fun a => by match a with | ⟨0, _⟩ => rfl | ⟨1, _⟩ => rfl
  have eb : idx_main_v6 (idx_main_v7 i) = ix1 (i 1) :=
    funext fun a => by match a with | ⟨0, _⟩ => rfl
  rw [val_main_v8_apply, val_main_v5_apply, val_main_v7_apply, val_main_v6_apply, eb]
  simp only [val_main_v4_apply, el, er, signs_eq]
  rfl

end Cert.ReferenceIdeal.RefValue

end
-- ==== Proof.lean ====
/-
  A linear layer with sign-binarized weights: out = x · signs(w)ᵀ + bias, for x of shape 8192 × 4096, w of shape
  4096 × 4096 and a bias of length 4096, where signs(w) is +1 where w ≥ 0 and −1 elsewhere.

  The kernel tiles the output into 2048 × 1024 blocks and the contraction axis into eight stretches of 512. For each
  output block it walks the eight stretches, starting the block at zero, adding at each stretch the product of the
  x block with the sign block (contracting the second axis of both, so the transpose is never formed), and adding the
  bias block after the last stretch. The reference transposes the sign matrix, takes one whole product and adds the
  bias broadcast down the rows. On the exact values the casts to bf16 are the identity, so both compute, at (i, j),

      (∑ k < 4096, x (i, k) · signs(w) (j, k)) + bias j,

  the kernel with the sum taken 512 terms at a time. A sum may be regrouped in any commutative additive monoid, so the
  two results agree on all extended reals; the finiteness of the inputs is not used.

  The kernel's result as a fold over each run of eight grid points and the reference's result as its operations'
  composed term are the generated value leg and the generated reference run; the modules under Proof/ read both at an
  index (Payloads, Blocks, Entry, Fold, KernelIsSpec for the kernel; RefIsSpec for the reference) and show each is the
  layer of Spec; LibBlockedSum is the regrouping law, SpecBlocks the layer with its sum regrouped.
-/
import proofs.«136808_j35905926594624_2_alg».proof.Defs
import proofs.«136808_j35905926594624_2_alg».proof.Proof.Gen.Kernel.Frame
import proofs.«136808_j35905926594624_2_alg».proof.Proof.Gen.KernelIdeal.Value
import proofs.«136808_j35905926594624_2_alg».proof.Proof.Gen.Pre_finite_inputs
import proofs.«136808_j35905926594624_2_alg».proof.Proof.Gen.ReferenceIdeal.Run
import proofs.«136808_j35905926594624_2_alg».proof.Proof.Gen.ReferenceIdeal.Read
import proofs.«136808_j35905926594624_2_alg».proof.Proof.KernelIsSpec
import proofs.«136808_j35905926594624_2_alg».proof.Proof.RefIsSpec
import Idealize.ShloMosaic.Adequacy
import Idealize.ShloMosaic.Init

noncomputable section

namespace Cert.Proof

open Idealize.ShloMosaic Idealize.SL.Sem

/-- The idealized kernel's run ends with its arguments as launched. -/
theorem frame_KernelIdeal : frame_KernelIdeal := fun m ρ _ =>
  (θ_run Cert.KernelIdeal.defs _ _).mono (fun _ h c => (h c).2) (Cert.KernelIdeal.Value.run (F := Ideal) m ρ)

/-- The idealized reference's run ends with its arguments as launched. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on x, w and the bias, both programs end with the layer of those arrays in their result. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.ReferenceIdeal.Read.val_main_v8_eq, Cert.ReferenceIdeal.RefValue.result_eq]
  exact (Cert.KernelIdeal.Layer.G3_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
